-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1 : S_.BroadcastsInDim S1 (![] : Fin 0 → Fin S1.rank)
  reducesTo_S1_S_d0 : S1.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1 .f32) (main_arg2 : FVec F S64x256 .f32) (main_arg3 : FVec F S256 .f32) (main_arg4 : FVec F S256x64 .f32) (main_arg5 : FVec F S64 .f32) (main_arg6 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x1 : Shape := ⟨2, ![1, 1]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩

abbrev nBuf : Space → Nat
  | .hbm => 28
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1, .f32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x1, .f32⟩
  | .hbm, ⟨25, _⟩ => ⟨S64x256, .bf16⟩
  | .hbm, ⟨26, _⟩ => ⟨S256x64, .bf16⟩
  | .hbm, ⟨27, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S1x1, .f32⟩
  | .local _ .vmem, ⟨5, _⟩ => ⟨S64x256, .bf16⟩
  | .local _ .vmem, ⟨6, _⟩ => ⟨S256, .f32⟩
  | .local _ .vmem, ⟨7, _⟩ => ⟨S256x64, .bf16⟩
  | .local _ .vmem, ⟨8, _⟩ => ⟨S64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S1_S1x1 : S1.ShapeCasts S1x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1 : Shape := ⟨1, ![1]⟩
abbrev S64x256 : Shape := ⟨2, ![64, 256]⟩
abbrev S256 : Shape := ⟨1, ![256]⟩
abbrev S256x64 : Shape := ⟨2, ![256, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1, .f32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x256, .f32⟩
  | .hbm, ⟨29, _⟩ => ⟨S1x256, .f32⟩
  | .hbm, ⟨30, _⟩ => ⟨S100000x256, .f32⟩
  | .hbm, ⟨31, _⟩ => ⟨S100000x256, .f32⟩
  | .hbm, ⟨32, _⟩ => ⟨S_, .f32⟩
  | .hbm, ⟨33, _⟩ => ⟨S100000x256, .f32⟩
  | .hbm, ⟨34, _⟩ => ⟨S100000x256, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_cst : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S1_S_ : S1.ShapeCasts S_
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x256_S100000x256_1_0_0_1_n_n_wf : DotDims.WF S100000x64 S64x256 S100000x256 [1] [0] [0] [1] [] []
  dot_S100000x256_S256x64_S100000x64_1_0_0_1_n_n_wf : DotDims.WF S100000x256 S256x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.MlpSpec.lean ====
/-
  The function both programs compute, stated once over plain index types.

  A graph-isomorphism layer on 100000 nodes with 64 features: with `agg` the neighbour sums (an array of the
  same shape as `x`, computed before anything here), the node update is `h = ε·x + agg`, followed by a
  two-layer perceptron `relu (h · W1 + b1) · W2 + b2` with 256 hidden units.  Entry `(r, q)` of the result
  depends on row `r` of `x` and `agg` only:

    out r q = (∑ k < 256, max ((∑ l < 64, (ε · x r l + agg r l) · W1 l k) + b1 k) 0 · W2 k q) + b2 q

  over the extended reals, each sum in the order of its index.  No algebraic law is needed to compare the two
  programs: both compute this expression with the operations in this arrangement.
-/
import Idealize.ShloMosaic.PureOps.Ideal
import Idealize.ShloMosaic.Lib.ValueIdx

noncomputable section

open scoped BigOperators

namespace Cert.GinMlp

open Idealize.ShloMosaic Idealize.ShloMosaic.ValueIdx

/-- The node update `ε · x + agg` at row `r`, feature `l`. -/
def pre (ε : EReal) (x agg : (⟨2, ![100000, 64]⟩ : Shape).Idx → EReal) (r : Fin 100000) (l : Fin 64) : EReal :=
  ε * x (ix2 r l) + agg (ix2 r l)

/-- Hidden unit `k` of row `r`: the first linear layer, its bias, and the rectifier. -/
def hidden (ε : EReal) (x agg : (⟨2, ![100000, 64]⟩ : Shape).Idx → EReal)
    (W1 : (⟨2, ![64, 256]⟩ : Shape).Idx → EReal) (b1 : (⟨1, ![256]⟩ : Shape).Idx → EReal)
    (r : Fin 100000) (k : Fin 256) : EReal :=
  max ((∑ l : Fin 64, pre ε x agg r l * W1 (ix2 l k)) + b1 (ix1 k)) 0

/-- Output feature `q` of row `r`: the second linear layer and its bias. -/
def outAt (ε : EReal) (x agg : (⟨2, ![100000, 64]⟩ : Shape).Idx → EReal)
    (W1 : (⟨2, ![64, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (r : Fin 100000) (q : Fin 64) : EReal :=
  (∑ k : Fin 256, hidden ε x agg W1 b1 r k * W2 (ix2 k q)) + b2 (ix1 q)

/-- The whole result array. -/
def out (ε : EReal) (x agg : (⟨2, ![100000, 64]⟩ : Shape).Idx → EReal)
    (W1 : (⟨2, ![64, 256]⟩ : Shape).Idx → EReal) (b1 : (⟨1, ![256]⟩ : Shape).Idx → EReal)
    (W2 : (⟨2, ![256, 64]⟩ : Shape).Idx → EReal) (b2 : (⟨1, ![64]⟩ : Shape).Idx → EReal) :
    (⟨2, ![100000, 64]⟩ : Shape).Idx → EReal :=
  fun i => outAt ε x agg W1 b1 W2 b2 (i 0) (i 1)

end Cert.GinMlp

end
-- ==== Proof.KernelBody.lean ====
/-
  What the kernel's body stores, entry by entry.

  At one grid point the body holds a block of 5000 rows of `x` and of the neighbour sums, the scalar ε, both
  weight matrices and both bias vectors, and stores one block of 5000 result rows.  Read at the extended reals
  (roundings to bf16 are the identity, a matrix product into a zero accumulator is the plain sum of products)
  entry `(p, q)` of the stored block is

    (∑ k < 256, max ((∑ l < 64, (ε · x p l + agg p l) · W1 l k) + b1 k) 0 · W2 k q) + b2 q.
-/
import proofs.«114909_j35399120453944_2_alg».proof.Proof.Gen.KernelIdeal.Skeleton
import proofs.«114909_j35399120453944_2_alg».proof.Proof.MlpSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! The operand indices of the two matrix products: on the axis that is not summed, the left operand keeps the
    output's row and the right operand the output's column. -/

theorem mm1_lhs_row (i : S5000x256.Idx) (c : dot_S5000x64_S64x256_S5000x256_1_0_0_1_n_n.contr.Idx) : (dot_S5000x64_S64x256_S5000x256_1_0_0_1_n_n.lhsIdx i c 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem mm1_rhs_col (i : S5000x256.Idx) (c : dot_S5000x64_S64x256_S5000x256_1_0_0_1_n_n.contr.Idx) : (dot_S5000x64_S64x256_S5000x256_1_0_0_1_n_n.rhsIdx i c 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

theorem mm2_lhs_row (i : S5000x64.Idx) (c : dot_S5000x256_S256x64_S5000x64_1_0_0_1_n_n.contr.Idx) : (dot_S5000x256_S256x64_S5000x64_1_0_0_1_n_n.lhsIdx i c 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem mm2_rhs_col (i : S5000x64.Idx) (c : dot_S5000x256_S256x64_S5000x64_1_0_0_1_n_n.contr.Idx) : (dot_S5000x256_S256x64_S5000x64_1_0_0_1_n_n.rhsIdx i c 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The first matrix product, into a zero accumulator, at `(p, k)`: row `p` of the left factor against column `k`
    of the right one, summed over the 64 shared coordinates. -/
theorem mm1_apply (L : FVec Ideal S5000x64 .bf16) (R : FVec Ideal S64x256 .bf16) (p : Fin 5000) (k : Fin 256) :
    matmul dot_S5000x64_S64x256_S5000x256_1_0_0_1_n_n none L R (constant S5000x256 .f32 0x00000000#32) (ix2 p k)
      = ∑ l : Fin 64, L (ix2 p l) * R (ix2 l k) := by
  simp only [matmul]
  rw [Ideal.matmul_constant_zero_apply, ← Equiv.sum_comp (contrEquiv1 dot_S5000x64_S64x256_S5000x256_1_0_0_1_n_n 64 rfl rfl).symm]
  refine Finset.sum_congr rfl fun l _ => ?_
  have hl := contrEquiv1_symm_val dot_S5000x64_S64x256_S5000x256_1_0_0_1_n_n 64 rfl rfl l
  have el : dot_S5000x64_S64x256_S5000x256_1_0_0_1_n_n.lhsIdx (ix2 p k) ((contrEquiv1 dot_S5000x64_S64x256_S5000x256_1_0_0_1_n_n 64 rfl rfl).symm l) = ix2 p l :=
    funext fun a => Fin.ext (by
      match a with
      | ⟨0, _⟩ => exact mm1_lhs_row _ _
      | ⟨1, _⟩ => exact (dot_S5000x64_S64x256_S5000x256_1_0_0_1_n_n.lhsIdx_val_of_single rfl _ _).trans hl)
  have er : dot_S5000x64_S64x256_S5000x256_1_0_0_1_n_n.rhsIdx (ix2 p k) ((contrEquiv1 dot_S5000x64_S64x256_S5000x256_1_0_0_1_n_n 64 rfl rfl).symm l) = ix2 l k :=
    funext fun a => Fin.ext (by
      match a with
      | ⟨0, _⟩ => exact (dot_S5000x64_S64x256_S5000x256_1_0_0_1_n_n.rhsIdx_val_of_single rfl _ _).trans hl
      | ⟨1, _⟩ => exact mm1_rhs_col _ _)
  rw [el, er]

/-- The second matrix product at `(p, q)`: summed over the 256 hidden units. -/
theorem mm2_apply (L : FVec Ideal S5000x256 .bf16) (R : FVec Ideal S256x64 .bf16) (p : Fin 5000) (q : Fin 64) :
    matmul dot_S5000x256_S256x64_S5000x64_1_0_0_1_n_n none L R (constant S5000x64 .f32 0x00000000#32) (ix2 p q)
      = ∑ k : Fin 256, L (ix2 p k) * R (ix2 k q) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k :=
    funext fun a => Fin.ext (by
      match a with
      | ⟨0, _⟩ => exact mm2_lhs_row _ _
      | ⟨1, _⟩ => exact (dot_S5000x256_S256x64_S5000x64_1_0_0_1_n_n.lhsIdx_val_of_single rfl _ _).trans hk)
  have er : dot_S5000x256_S256x64_S5000x64_1_0_0_1_n_n.rhsIdx (ix2 p q) ((contrEquiv1 dot_S5000x256_S256x64_S5000x64_1_0_0_1_n_n 256 rfl rfl).symm k) = ix2 k q :=
    funext fun a => Fin.ext (by
      match a with
      | ⟨0, _⟩ => exact (dot_S5000x256_S256x64_S5000x64_1_0_0_1_n_n.rhsIdx_val_of_single rfl _ _).trans hk
      | ⟨1, _⟩ => exact mm2_rhs_col _ _)
  rw [el, er]

/-- The first bias, laid out as one row and repeated down the 5000 rows, reads `b1 k` at `(p, k)`. -/
theorem bias1_apply (v : FVec Ideal S256 .f32) (p : Fin 5000) (k : Fin 256) :
    broadcastTo S5000x256 (shapeCast S1x256 v shapeCasts_S256_S1x256) broadcasts_S1x256_S5000x256 (ix2 p k) = v (ix1 k) :=
  (ValueIdx.broadcastTo_1b_ab_apply _ broadcasts_S1x256_S5000x256 p k).trans
    (ValueIdx.shapeCast_a_1a_apply v shapeCasts_S256_S1x256 0 k)

/-- The second bias likewise reads `b2 q` at `(p, q)`. -/
theorem bias2_apply (v : FVec Ideal S64 .f32) (p : Fin 5000) (q : Fin 64) :
    broadcastTo S5000x64 (shapeCast S1x64 v shapeCasts_S64_S1x64) broadcasts_S1x64_S5000x64 (ix2 p q) = v (ix1 q) :=
  (ValueIdx.broadcastTo_1b_ab_apply _ broadcasts_S1x64_S5000x64 p q).trans
    (ValueIdx.shapeCast_a_1a_apply v shapeCasts_S64_S1x64 0 q)

/-- Entry `(p, q)` of the block the body stores, from the blocks it loads. -/
theorem pay_apply (v0 : Vec Ideal S1x1 .f32) (v2 v5 : Vec Ideal S5000x64 .f32) (v9 : Vec Ideal S64x256 .bf16)
    (v12 : Vec Ideal S256 .f32) (v19 : Vec Ideal S256x64 .bf16) (v22 : Vec Ideal S64 .f32) (p : Fin 5000) (q : Fin 64) :
    k0_pay1 (F := Ideal) v0 v2 v5 v9 v12 v19 v22 (ix2 p q)
      = (∑ k : Fin 256, max ((∑ l : Fin 64, (v0 (ix2 (0 : Fin 1) (0 : Fin 1)) * v2 (ix2 p l) + v5 (ix2 p l)) * v9 (ix2 l k)) + v12 (ix1 k)) 0
          * v19 (ix2 k q)) + v22 (ix1 q) := by
  unfold k0_pay1
  simp only [addf_apply, mm2_apply, bias2_apply, truncf_apply, maximumf_apply, mm1_apply, bias1_apply, mulf_apply,
    broadcast_apply, shapeCast_self]
  have hε : extractAt ![0, 0] v0 inpos_S1x1_p0_0 = v0 (ix2 (0 : Fin 1) (0 : Fin 1)) :=
    congrArg v0 (funext fun a => Fin.ext (by match a with | ⟨0, _⟩ => rfl | ⟨1, _⟩ => rfl))
  rw [hε, Ideal.ofBits_def, Ideal.ofBits_zero_f32]

/-- So, when the loaded blocks hold row `r` of `x` and of the neighbour sums at their row `p`, and ε, the weights and the
    biases whole, entry `(p, q)` of the stored block is entry `(r, q)` of the specification. -/
theorem block_entry (ε : EReal) (x agg : (⟨2, ![100000, 64]⟩ : Shape).Idx → EReal)
    (W1 : (⟨2, ![64, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (v0 : Vec Ideal S1x1 .f32) (v2 v5 : Vec Ideal S5000x64 .f32) (v9 : Vec Ideal S64x256 .bf16)
    (v12 : Vec Ideal S256 .f32) (v19 : Vec Ideal S256x64 .bf16) (v22 : Vec Ideal S64 .f32)
    (r : Fin 100000) (p : Fin 5000) (q : Fin 64)
    (h0 : v0 (ix2 (0 : Fin 1) (0 : Fin 1)) = ε)
    (h2 : ∀ l : Fin 64, v2 (ix2 p l) = x (ix2 r l)) (h5 : ∀ l : Fin 64, v5 (ix2 p l) = agg (ix2 r l))
    (h9 : ∀ (l : Fin 64) (k : Fin 256), v9 (ix2 l k) = W1 (ix2 l k)) (h12 : ∀ k : Fin 256, v12 (ix1 k) = b1 (ix1 k))
    (h19 : ∀ (k : Fin 256) (q : Fin 64), v19 (ix2 k q) = W2 (ix2 k q)) (h22 : ∀ q : Fin 64, v22 (ix1 q) = b2 (ix1 q)) :
    k0_pay1 (F := Ideal) v0 v2 v5 v9 v12 v19 v22 (ix2 p q) = Cert.GinMlp.outAt ε x agg W1 b1 W2 b2 r q := by
  rw [pay_apply]
  unfold Cert.GinMlp.outAt Cert.GinMlp.hidden Cert.GinMlp.pre
  simp only [h0, h2, h5, h9, h12, h19, h22]

end Cert.KernelIdeal.Body

end
-- ==== Proof.KernelArrays.lean ====
/-
  What the kernel's region finds in the arrays its windows stage.

  Before the region the program computes, from the arguments alone: the neighbour sums (each edge's source row of
  `x` gathered, then added into its destination row, starting from zero), ε laid out as a 1×1 array, and the two
  weight matrices rounded to bf16.  The other windows stage arguments as launched.
-/
import proofs.«114909_j35399120453944_2_alg».proof.Proof.Gen.KernelIdeal.Frame
import Idealize.ShloMosaic.Lib.StableHlo.Run

noncomputable section

namespace Cert.KernelIdeal.Arrays

open Cert.KernelIdeal Cert.KernelIdeal.Gen Idealize.ShloMosaic Idealize.ShloMosaic.TcCoe Idealize.SL.Sem Idealize.ShloMosaic.StableHlo

variable {F : FTy → Type} [FloatOps F]

/-- The neighbour sums: with `src = e[0]` (an index below zero counted from the end) and `dst = e[1]` the two rows of
    the edge list, row `src j` of `x` is added into row `dst j` of an array of zeros, for every edge `j`. -/
def agg (x : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    (Host.gather gather_S100000x64_S1600000x1_S1600000x64_1_0_n_n_0_1_164 x
      (broadcastInDim S1600000x1 ![0] bcast_S1600000_S1600000x1_0
        (select
          (cmpi .slt (shapeCast _ (extractStridedSlice S1x1600000 ![0, 0] e slices_S2x1600000_S1x1600000_0_0) shapeCasts_S1x1600000_S1600000)
            (broadcastInDim S1600000 ![] bcast_S_S1600000 (constantI S_ 32 0#32)))
          (addi (shapeCast _ (extractStridedSlice S1x1600000 ![0, 0] e slices_S2x1600000_S1x1600000_0_0) shapeCasts_S1x1600000_S1600000)
            (broadcastInDim S1600000 ![] bcast_S_S1600000 (constantI S_ 32 100000#32)))
          (shapeCast _ (extractStridedSlice S1x1600000 ![0, 0] e slices_S2x1600000_S1x1600000_0_0) shapeCasts_S1x1600000_S1600000))))

variable (m : (ℓ : Loc nD τ sig) → Buf (Elt F) ℓ)

/-- The second window's array holds the neighbour sums of the arguments. -/
theorem V_agg (c : Dev nD) :
    V m c main_v13 = agg (F := F) (m ((c : Thread nD τ).loc main_arg0)) (m ((c : Thread nD τ).loc main_arg6)) := by
  dsimp only [V, hostOps0]
  after_results
  rfl

/-- The third window's array holds ε as a 1×1 array. -/
theorem V_eps (c : Dev nD) :
    V m c main_v14 = shapeCast _ (m ((c : Thread nD τ).loc main_arg1)) shapeCasts_S1_S1x1 := by
  dsimp only [V, hostOps0]
  after_results
  rfl

/-- The fourth window's array holds the first weight matrix, rounded. -/
theorem V_W1 (c : Dev nD) :
    V m c main_v15 = truncf .bf16 (m ((c : Thread nD τ).loc main_arg2)) bitsLt_bf16_f32 := by
  dsimp only [V, hostOps0]
  after_results

/-- The sixth window's array holds the second weight matrix, rounded. -/
theorem V_W2 (c : Dev nD) :
    V m c main_v16 = truncf .bf16 (m ((c : Thread nD τ).loc main_arg4)) bitsLt_bf16_f32 := by
  dsimp only [V, hostOps0]
  after_results

end Cert.KernelIdeal.Arrays

end
-- ==== Proof.KernelBlocks.lean ====
/-
  What each staged block holds, entry by entry.

  The grid has 20 points; point `t` stages rows `5000·t … 5000·t + 4999` of `x` and of the neighbour sums, and the
  whole of ε, of the two weight matrices and of the two bias vectors.  Each lemma below reads one staged block at an
  entry as the corresponding entry of an argument array (for the neighbour sums: of the array the program computed
  from the arguments before the region).
-/
import proofs.«114909_j35399120453944_2_alg».proof.Proof.Gen.KernelIdeal.Frame
import Idealize.ShloMosaic.Lib.ValueIdx
import Idealize.ShloMosaic.Lib.Pipeline.Value
import proofs.«114909_j35399120453944_2_alg».proof.Proof.KernelArrays

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-blocked inputs move with the output, every other input stays at
    block zero, and the output's block row is below 20. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 19 ∧ win0_7.index t (1 : Fin 2) = 0 :=
  (by decide +kernel : ∀ t : Fin grid0.N, _)

/-! ## The arrays the windows stage, as the region finds them -/

theorem arr_x (c : Dev nD) : V m c (Pipeline.arrRef spec0 0) = m ((c : Thread nD τ).loc main_arg0) := V_main_arg0 m c
theorem arr_agg (c : Dev nD) : V m c (Pipeline.arrRef spec0 1) = Arrays.agg (F := Ideal) (m ((c : Thread nD τ).loc main_arg0)) (m ((c : Thread nD τ).loc main_arg6)) := Arrays.V_agg m c
theorem arr_eps (c : Dev nD) : V m c (Pipeline.arrRef spec0 2) = shapeCast _ (m ((c : Thread nD τ).loc main_arg1)) shapeCasts_S1_S1x1 := Arrays.V_eps m c
theorem arr_W1 (c : Dev nD) : V m c (Pipeline.arrRef spec0 3) = (truncf (F := Ideal) .bf16 (m ((c : Thread nD τ).loc main_arg2)) bitsLt_bf16_f32 : FVec Ideal S64x256 .bf16) := Arrays.V_W1 m c
theorem arr_b1 (c : Dev nD) : V m c (Pipeline.arrRef spec0 4) = m ((c : Thread nD τ).loc main_arg3) := V_main_arg3 m c
theorem arr_W2 (c : Dev nD) : V m c (Pipeline.arrRef spec0 5) = (truncf (F := Ideal) .bf16 (m ((c : Thread nD τ).loc main_arg4)) bitsLt_bf16_f32 : FVec Ideal S256x64 .bf16) := Arrays.V_W2 m c
theorem arr_b2 (c : Dev nD) : V m c (Pipeline.arrRef spec0 6) = m ((c : Thread nD τ).loc main_arg5) := V_main_arg5 m c

/-! ## The blocks -/

/-- Row `p` of the staged block of `x` is row `5000·t + p` of `x`. -/
theorem blk_x (c : Dev nD) (t : Fin cfg0.N) (p : Fin 5000) (l : Fin 64) (r : Fin 100000)
    (hr : r.val = win0_7.index t (0 : Fin 2) * 5000 + p.val) :
    (iblk m c 0 t : Vec Ideal S5000x64 .f32) (ix2 p l)
      = (m ((c : Thread nD τ).loc main_arg0) : S100000x64.Idx → EReal) (ix2 r l) := by
  obtain ⟨e0, e1, -⟩ := idx_facts t
  unfold iblk
  rw [View.read_apply, arr_x m c]
  generalize (m ((c : Thread nD τ).loc main_arg0) : S100000x64.Idx → EReal) = A
  refine (eq_of_heq (cast_heq _ _)).trans ?_
  refine congrArg A (funext fun a => Fin.ext ?_)
  match a with
  | ⟨0, _⟩ => show win0_0.index t (0 : Fin 2) * 5000 + 1 * p.val = r.val; omega
  | ⟨1, _⟩ => show win0_0.index t (1 : Fin 2) * 64 + 1 * l.val = l.val; omega

/-- Row `p` of the staged block of the neighbour sums is their row `5000·t + p`. -/
theorem blk_agg (c : Dev nD) (t : Fin cfg0.N) (p : Fin 5000) (l : Fin 64) (r : Fin 100000)
    (hr : r.val = win0_7.index t (0 : Fin 2) * 5000 + p.val) :
    (iblk m c 1 t : Vec Ideal S5000x64 .f32) (ix2 p l)
      = (Arrays.agg (F := Ideal) (m ((c : Thread nD τ).loc main_arg0)) (m ((c : Thread nD τ).loc main_arg6)) : S100000x64.Idx → EReal) (ix2 r l) := by
  obtain ⟨-, -, e0, e1, -⟩ := idx_facts t
  unfold iblk
  rw [View.read_apply, arr_agg m c]
  generalize (Arrays.agg (F := Ideal) (m ((c : Thread nD τ).loc main_arg0)) (m ((c : Thread nD τ).loc main_arg6)) : S100000x64.Idx → EReal) = A
  refine (eq_of_heq (cast_heq _ _)).trans ?_
  refine congrArg A (funext fun a => Fin.ext ?_)
  match a with
  | ⟨0, _⟩ => show win0_1.index t (0 : Fin 2) * 5000 + 1 * p.val = r.val; omega
  | ⟨1, _⟩ => show win0_1.index t (1 : Fin 2) * 64 + 1 * l.val = l.val; omega

/-- The staged ε block holds the one element of ε. -/
theorem blk_eps (c : Dev nD) (t : Fin cfg0.N) :
    (iblk m c 2 t : Vec Ideal S1x1 .f32) (ix2 (0 : Fin 1) (0 : Fin 1))
      = (m ((c : Thread nD τ).loc main_arg1) : S1.Idx → EReal) (ix1 (0 : Fin 1)) := by
  unfold iblk
  rw [View.read_apply, arr_eps m c]
  generalize ((cfg0.win 2).blk t).view.emb (ix2 (0 : Fin 1) (0 : Fin 1)) = j
  generalize (m ((c : Thread nD τ).loc main_arg1) : S1.Idx → EReal) = A
  refine (eq_of_heq (cast_heq _ _)).trans ?_
  refine shapeCast_apply A shapeCasts_S1_S1x1 j (ix1 (0 : Fin 1)) ?_
  show (S1.rowMajor (ix1 (0 : Fin 1))).val = (S1x1.rowMajor j).val
  rw [Shape.rowMajor_val_one, Shape.rowMajor_val_two]
  have h0 : (j 0).val < 1 := (j 0).isLt
  have h1 : (j 1).val < 1 := (j 1).isLt
  show (0 : ℕ) = (j 0).val * 1 + (j 1).val
  omega

/-- The staged first weight matrix, rounded to bf16, is the first weight matrix: the rounding is the identity here. -/
theorem blk_W1 (c : Dev nD) (t : Fin cfg0.N) (l : Fin 64) (k : Fin 256) :
    (iblk m c 3 t : Vec Ideal S64x256 .bf16) (ix2 l k)
      = (m ((c : Thread nD τ).loc main_arg2) : S64x256.Idx → EReal) (ix2 l k) := by
  obtain ⟨-, -, -, -, -, -, e0, e1, -⟩ := idx_facts t
  unfold iblk
  rw [View.read_apply, arr_W1 m c]
  generalize (m ((c : Thread nD τ).loc main_arg2) : S64x256.Idx → EReal) = A
  refine (eq_of_heq (cast_heq _ _)).trans ?_
  show A _ = A _
  refine congrArg A (funext fun a => Fin.ext ?_)
  match a with
  | ⟨0, _⟩ => show win0_3.index t (0 : Fin 2) * 64 + 1 * l.val = l.val; omega
  | ⟨1, _⟩ => show win0_3.index t (1 : Fin 2) * 256 + 1 * k.val = k.val; omega

/-- The staged first bias is the first bias. -/
theorem blk_b1 (c : Dev nD) (t : Fin cfg0.N) (k : Fin 256) :
    (iblk m c 4 t : Vec Ideal S256 .f32) (ix1 k)
      = (m ((c : Thread nD τ).loc main_arg3) : S256.Idx → EReal) (ix1 k) := by
  obtain ⟨-, -, -, -, -, -, -, -, e0, -⟩ := idx_facts t
  unfold iblk
  rw [View.read_apply, arr_b1 m c]
  generalize (m ((c : Thread nD τ).loc main_arg3) : S256.Idx → EReal) = A
  refine (eq_of_heq (cast_heq _ _)).trans ?_
  refine congrArg A (funext fun a => Fin.ext ?_)
  match a with
  | ⟨0, _⟩ => show win0_4.index t (0 : Fin 1) * 256 + 1 * k.val = k.val; omega

/-- The staged second weight matrix likewise. -/
theorem blk_W2 (c : Dev nD) (t : Fin cfg0.N) (k : Fin 256) (q : Fin 64) :
    (iblk m c 5 t : Vec Ideal S256x64 .bf16) (ix2 k q)
      = (m ((c : Thread nD τ).loc main_arg4) : S256x64.Idx → EReal) (ix2 k q) := by
  obtain ⟨-, -, -, -, -, -, -, -, -, e0, e1, -⟩ := idx_facts t
  unfold iblk
  rw [View.read_apply, arr_W2 m c]
  generalize (m ((c : Thread nD τ).loc main_arg4) : S256x64.Idx → EReal) = A
  refine (eq_of_heq (cast_heq _ _)).trans ?_
  show A _ = A _
  refine congrArg A (funext fun a => Fin.ext ?_)
  match a with
  | ⟨0, _⟩ => show win0_5.index t (0 : Fin 2) * 256 + 1 * k.val = k.val; omega
  | ⟨1, _⟩ => show win0_5.index t (1 : Fin 2) * 64 + 1 * q.val = q.val; omega

/-- The staged second bias is the second bias. -/
theorem blk_b2 (c : Dev nD) (t : Fin cfg0.N) (q : Fin 64) :
    (iblk m c 6 t : Vec Ideal S64 .f32) (ix1 q)
      = (m ((c : Thread nD τ).loc main_arg5) : S64.Idx → EReal) (ix1 q) := by
  obtain ⟨-, -, -, -, -, -, -, -, -, -, -, e0, -⟩ := idx_facts t
  unfold iblk
  rw [View.read_apply, arr_b2 m c]
  generalize (m ((c : Thread nD τ).loc main_arg5) : S64.Idx → EReal) = A
  refine (eq_of_heq (cast_heq _ _)).trans ?_
  refine congrArg A (funext fun a => Fin.ext ?_)
  match a with
  | ⟨0, _⟩ => show win0_6.index t (0 : Fin 1) * 64 + 1 * q.val = q.val; omega

end Cert.KernelIdeal.Blocks

end
-- ==== Proof.KernelValue.lean ====
/-
  The kernel's result array is the specification.

  An entry of the result depends only on its own row of `x` and of the neighbour sums, so what grid point `t` writes
  back — the body's block of 5000 result rows, computed from the rows `5000·t … 5000·t + 4999` it staged — is block
  `t` of the specification; and the 20 blocks cover the 100000 rows, so the array ends holding the specification.
-/
import proofs.«114909_j35399120453944_2_alg».proof.Proof.Gen.KernelIdeal.Value
import proofs.«114909_j35399120453944_2_alg».proof.Proof.KernelBody
import proofs.«114909_j35399120453944_2_alg».proof.Proof.KernelBlocks

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result: the specification of the arguments as launched, with the neighbour sums the program computes. -/
def result (c : Dev nD) : S100000x64.Idx → EReal :=
  Cert.GinMlp.out ((m ((c : Thread nD τ).loc main_arg1) : S1.Idx → EReal) (ix1 (0 : Fin 1)))
    (m ((c : Thread nD τ).loc main_arg0))
    (Arrays.agg (F := Ideal) (m ((c : Thread nD τ).loc main_arg0)) (m ((c : Thread nD τ).loc main_arg6)))
    (m ((c : Thread nD τ).loc main_arg2)) (m ((c : Thread nD τ).loc main_arg3))
    (m ((c : Thread nD τ).loc main_arg4)) (m ((c : Thread nD τ).loc main_arg5))

/-- Every block row is some point's. -/
theorem idx_onto : ∀ b : Fin 20, ∃ t : Fin cfg0.N, win0_7.index t (0 : Fin 2) = b.val :=
  (by decide +kernel : ∀ b : Fin 20, ∃ t : Fin grid0.N, win0_7.index t (0 : Fin 2) = b.val)

/-- What point `t` writes back is block `t` of the result. -/
theorem flushed_eq (c : Dev nD) (t : Fin cfg0.N) :
    (dats m 0 c).flushed 7 t = ((cfg0.win 7).blk t).view.read (Elt Ideal) (result m c) := by
  rw [flushed7]
  unfold out0_7
  rw [View.canon_unit_zero Blocks.hz2]
  simp only [View.ld_unit_zero (S := S1x1) Blocks.hz2, View.ld_unit_zero (S := S5000x64) Blocks.hz2, View.ld_unit_zero (S := S64x256) Blocks.hz2,
    View.ld_unit_zero (S := S256) Blocks.hz1, View.ld_unit_zero (S := S256x64) Blocks.hz2, View.ld_unit_zero (S := S64) Blocks.hz1]
  obtain ⟨-, -, -, -, -, -, -, -, -, -, -, -, e0, e1⟩ := Blocks.idx_facts t
  funext j
  obtain ⟨p, q, rfl⟩ : ∃ (p : Fin 5000) (q : Fin 64), j = ix2 p q := ⟨j 0, j 1, eq_ix2 j⟩
  have hr : win0_7.index t (0 : Fin 2) * 5000 + p.val < 100000 := by have := p.isLt; omega
  have hi : ((cfg0.win 7).blk t).view.emb (ix2 p q) = ix2 (⟨win0_7.index t (0 : Fin 2) * 5000 + p.val, hr⟩ : Fin 100000) q :=
    funext fun a => Fin.ext (by
      match a with
      | ⟨0, _⟩ => show win0_7.index t (0 : Fin 2) * 5000 + 1 * p.val = win0_7.index t (0 : Fin 2) * 5000 + p.val; omega
      | ⟨1, _⟩ => show win0_7.index t (1 : Fin 2) * 64 + 1 * q.val = q.val; omega)
  rw [View.read_apply]
  refine Eq.trans ?_ (eq_of_heq (cast_heq _ _)).symm
  rw [hi]
  have hx : (cfg0.win 7).xinj (grid0.coords t) (ix2 p q) = ix2 p q :=
    funext fun a => Fin.ext (by match a with | ⟨0, _⟩ => rfl | ⟨1, _⟩ => rfl)
  show k0_pay1 _ _ _ _ _ _ _ ((cfg0.win 7).xinj (grid0.coords t) (ix2 p q)) = _
  rw [hx]
  unfold result Cert.GinMlp.out
  exact Body.block_entry (((m ((c : Thread nD τ).loc main_arg1)) : S1.Idx → EReal) (ix1 (0 : Fin 1))) (m ((c : Thread nD τ).loc main_arg0))
    (Arrays.agg (F := Ideal) (m ((c : Thread nD τ).loc main_arg0)) (m ((c : Thread nD τ).loc main_arg6)))
    (m ((c : Thread nD τ).loc main_arg2)) (m ((c : Thread nD τ).loc main_arg3)) (m ((c : Thread nD τ).loc main_arg4)) (m ((c : Thread nD τ).loc main_arg5))
    (iblk m c 2 t) (iblk m c 0 t) (iblk m c 1 t) (iblk m c 3 t) (iblk m c 4 t) (iblk m c 5 t) (iblk m c 6 t)
    (⟨win0_7.index t (0 : Fin 2) * 5000 + p.val, hr⟩ : Fin 100000) p q
    (Blocks.blk_eps m c t)
    (fun l => Blocks.blk_x m c t p l ⟨win0_7.index t (0 : Fin 2) * 5000 + p.val, hr⟩ rfl)
    (fun l => Blocks.blk_agg m c t p l ⟨win0_7.index t (0 : Fin 2) * 5000 + p.val, hr⟩ rfl)
    (fun l k => Blocks.blk_W1 m c t l k) (fun k => Blocks.blk_b1 m c t k)
    (fun k q => Blocks.blk_W2 m c t k q) (fun q => Blocks.blk_b2 m c t q)

/-- An index of the result array is in point `t`'s block exactly when its row is one of the block's 5000 rows. -/
theorem mem_blk (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v17).slice (win0_7.rect t)).set ↔ _
  rw [View.set_slice_whole, Rect.mem_set_unit]
  exact Iff.rfl

/-- Every index of the result array is in some point's block: row `r` is in the block of the point whose block row is `r / 5000`. -/
theorem cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  obtain ⟨t, ht⟩ := idx_onto ⟨(i 0).val / 5000, by omega⟩
  have ht' : win0_7.index t (0 : Fin 2) = (i 0).val / 5000 := ht
  obtain ⟨-, -, -, -, -, -, -, -, -, -, -, -, -, e1⟩ := Blocks.idx_facts t
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- So the result array ends holding the specification. -/
theorem final (c : Dev nD) : (dats m 0 c).arrAt 7 cfg0.N = result m c :=
  (dats m 0 c).arrAt_eq_of_cover 7 (result m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.KValue

end
-- ==== Proof.RefValue.lean ====
/-
  The reference's result, entry by entry, is the specification.

  The reference computes the neighbour sums, then `ε·x + agg` on the whole array, the first linear layer as one
  `dot_general` over all 100000 rows, the bias, the rectifier, the second `dot_general` and its bias.  Each of
  these reads, at entry `(r, q)`, the entries of its operands that the specification names, so the composed term
  is the specification applied to the reference's own neighbour sums.
-/
import proofs.«114909_j35399120453944_2_alg».proof.Proof.Gen.ReferenceIdeal.Read
import proofs.«114909_j35399120453944_2_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The one-element array ε reshaped to a scalar reads its one element. -/
theorem eps_scalar (x1 : (⟨S1, .f32⟩ : BufTy).Contents (Elt Ideal)) (j : S_.Idx) :
    val_main_v14 (F := Ideal) x1 j = x1 (ix1 (0 : Fin 1)) := by
  unfold val_main_v14
  refine shapeCast_apply x1 shapeCasts_S1_S_ j (ix1 (0 : Fin 1)) ?_
  rw [Shape.rowMajor_val_one]
  have hj := (S_.rowMajor j).isLt
  have hn : S_.numel = 1 := by decide
  show (0 : ℕ) = _
  omega

/-! The operand indices the generated reading lemmas compute, at an index given by its coordinates. -/

theorem lidx2 (r : Fin 100000) (q : Fin 64) (k : Fin 256) : lidx_main_v23 (ix2 r q) k = ix2 r k :=
  funext fun a => Fin.ext (by match a with | ⟨0, _⟩ => rfl | ⟨1, _⟩ => rfl)
theorem ridx2 (r : Fin 100000) (q : Fin 64) (k : Fin 256) : ridx_main_v23 (ix2 r q) k = ix2 k q :=
  funext fun a => Fin.ext (by match a with | ⟨0, _⟩ => rfl | ⟨1, _⟩ => rfl)
theorem lidx1 (r : Fin 100000) (k : Fin 256) (l : Fin 64) : lidx_main_v18 (ix2 r k) l = ix2 r l :=
  funext fun a => Fin.ext (by match a with | ⟨0, _⟩ => rfl | ⟨1, _⟩ => rfl)
theorem ridx1 (r : Fin 100000) (k : Fin 256) (l : Fin 64) : ridx_main_v18 (ix2 r k) l = ix2 l k :=
  funext fun a => Fin.ext (by match a with | ⟨0, _⟩ => rfl | ⟨1, _⟩ => rfl)
theorem bidx2 (r : Fin 100000) (q : Fin 64) : idx_main_v24 (idx_main_v25 (ix2 r q)) = ix1 q :=
  funext fun a => Fin.ext (by match a with | ⟨0, _⟩ => rfl)
theorem bidx1 (r : Fin 100000) (k : Fin 256) : idx_main_v19 (idx_main_v20 (ix2 r k)) = ix1 k :=
  funext fun a => Fin.ext (by match a with | ⟨0, _⟩ => rfl)

/-- The reference's result array is the specification of the arguments and of the reference's neighbour sums. -/
theorem result_eq (x0 : (⟨S100000x64, .f32⟩ : BufTy).Contents (Elt Ideal)) (x1 : (⟨S1, .f32⟩ : BufTy).Contents (Elt Ideal))
    (x2 : (⟨S64x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S2x1600000, .i32⟩ : BufTy).Contents (Elt Ideal)) :
    val_main_v26 (F := Ideal) x0 x1 x2 x3 x4 x5 x6
      = Cert.GinMlp.out (x1 (ix1 (0 : Fin 1))) x0 (val_main_v13 (F := Ideal) x0 x6) x2 x3 x4 x5 := by
  funext i
  obtain ⟨r, q, rfl⟩ : ∃ (r : Fin 100000) (q : Fin 64), i = ix2 r q := ⟨i 0, i 1, eq_ix2 i⟩
  rw [val_main_v26_apply, val_main_v23_apply, val_main_v25_apply, val_main_v24_apply]
  simp only [lidx2, ridx2, bidx2, val_main_v22_apply, val_main_v21_apply, val_main_v18_apply, val_main_v20_apply, val_main_v19_apply,
    lidx1, ridx1, bidx1, val_main_call0_v0_apply, val_main_call0_cst_apply, val_main_v17_apply, val_main_v16_apply,
    val_main_v15_apply, eps_scalar, Ideal.addf_def, Ideal.mulf_def, Ideal.maximumf_def, Ideal.ofBits_def, Ideal.ofBits_zero_f32]
  rfl

end Cert.ReferenceIdeal.RefValue

end
-- ==== Proof.lean ====
/-
  Both programs compute one layer of a graph-isomorphism network on 100000 nodes with 64 features: the neighbour
  sums `agg` (each edge's source row of `x` added into its destination row), the update `ε·x + agg`, and a
  two-layer perceptron with a rectifier, `relu (h · W1 + b1) · W2 + b2`.  The kernel's program and the reference
  compute the neighbour sums by the same host operations on the same arguments; the kernel then does the rest in 20
  row blocks of 5000 with bf16 operands (exact at the extended reals), the reference on the whole array.  Both end
  at the specification `Cert.GinMlp.out` of the arguments and the neighbour sums, entry by entry, with every sum in
  the same order: no algebraic law is needed, and the precondition is not used.

  The three frames are the generated ones (the reference's is its run with the result dropped); no rewrite was
  applied when the kernel was idealized, so there is nothing to preserve.
-/
import proofs.«114909_j35399120453944_2_alg».proof.Proof.Gen.Kernel
import proofs.«114909_j35399120453944_2_alg».proof.Proof.Gen.Kernel.Frame
import proofs.«114909_j35399120453944_2_alg».proof.Proof.Gen.KernelIdeal
import proofs.«114909_j35399120453944_2_alg».proof.Proof.Gen.KernelIdeal.Frame
import proofs.«114909_j35399120453944_2_alg».proof.Proof.Gen.KernelIdeal.Value
import proofs.«114909_j35399120453944_2_alg».proof.Proof.Gen.ReferenceIdeal
import proofs.«114909_j35399120453944_2_alg».proof.Proof.Gen.ReferenceIdeal.Run
import proofs.«114909_j35399120453944_2_alg».proof.Proof.Gen.ReferenceIdeal.Read
import proofs.«114909_j35399120453944_2_alg».proof.Proof.Gen.Pre_finite_inputs
import proofs.«114909_j35399120453944_2_alg».proof.Proof.KernelValue
import proofs.«114909_j35399120453944_2_alg».proof.Proof.RefValue
import proofs.«114909_j35399120453944_2_alg».proof.Defs
import Idealize.ShloMosaic.Adequacy
import Idealize.ShloMosaic.Init

noncomputable section

namespace Cert.Proof

open Idealize.ShloMosaic Idealize.ShloMosaic.TcCoe Idealize.SL.Sem

/-- The neighbour sums of the two programs are one function of `x` and the edge list: the same host operations in the
    same order, with the same dimension numbers. -/
theorem agg_same (x : (⟨Cert.KernelIdeal.S100000x64, .f32⟩ : BufTy).Contents (Elt Ideal))
    (e : (⟨Cert.KernelIdeal.S2x1600000, .i32⟩ : BufTy).Contents (Elt Ideal)) :
    Cert.ReferenceIdeal.Read.val_main_v13 (F := Ideal) x e = Cert.KernelIdeal.Arrays.agg (F := Ideal) x e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel's result array ends at the specification of its arguments, and so does the
    reference's, of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v26_eq, Cert.ReferenceIdeal.RefValue.result_eq, a0, a1, a2, a3, a4, a5, a6, agg_same]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
